-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S512x4096 : Shape := ⟨2, ![512, 4096]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S4096x256, .f32⟩
  | .local _ .vmem, ⟨4, _⟩ => ⟨S256x256, .f32⟩
  | .local _ .vmem, ⟨5, _⟩ => ⟨S512x256, .f32⟩
  | .local _ .vmem, ⟨6, _⟩ => ⟨S512x256, .f32⟩
  | .local _ .vmem, ⟨7, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c4096_i32_12 : BitVec 32 := 4096#32
  let v17 : BitVec 32 := Scalar.muli arg1 c4096_i32_12
  let v18 : Index := Scalar.indexCast v17
  let c0_13 : Index := 0#32
  ![v18.toNat, 0]
def k0_off2 (i : grid0.Coords) : Fin 2 → Nat :=
  let arg1 : BitVec 32 := BitVec.ofNat 32 (i 1).val
  let c4096_i32 : BitVec 32 := 4096#32
  let v4 : BitVec 32 := Scalar.muli arg1 c4096_i32
  let v5 : Index := Scalar.indexCast v4
  let c0_2 : Index := 0#32
  ![v5.toNat, 0]
def k0_cond2 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c0_i32_5 : BitVec 32 := 0#32
  let v11 : BitVec 1 := Scalar.cmpi .sgt arg1 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  k0_off1_inb : ∀ i : grid0.Coords, ∀ (k0_h1 : k0_cond1 i = 1#1), ∀ a, (k0_off1 i) a + S4096x256.size a ≤ S4096x256.size a
  k0_off2_inb : ∀ i : grid0.Coords, ∀ a, (k0_off2 i) a + S4096x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .hbm, ⟨4, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.LibCover.lean ====
/-
  Two general facts about reading a buffer after stores, when the LAST store wrote the whole buffer: a load through any
  rectangle then reads that store's payload through the rectangle, whatever was stored before.
-/
import Idealize.ShloMosaic.Lib.Pipeline.FrameBody
import Idealize.ShloMosaic.Lib.Pipeline.Value

namespace Idealize.ShloMosaic.View

variable {Val : EltTy → Type} {S : Shape} {e : EltTy}

/-- After a last store of `w` through the whole-shape rectangle at zero offsets, a covered load through a rectangle
    `r` reads `w` at `r`'s indices. -/
theorem readCov_cons_whole_ld [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) (r : Rect S) :
    v.readCov ((⟨Rect.unit off S.size inb, w⟩ : Piece Val S e) :: L) r.toLoadRect = View.ld w r := by
  subst h
  rw [readCov_eq_canon_ld _ _ _ (fun y => ⟨_, List.mem_cons_self, by
    show y ∈ (Rect.whole S).set; rw [Rect.set_whole]; exact Finset.mem_univ y⟩), canon_cons_unit_zero rfl]

end Idealize.ShloMosaic.View
-- ==== Proof.LibWhole.lean ====
/-
  General facts about a buffer read through the rectangle that covers its whole shape (zero offsets, the shape's own
  extents): a load through it reads the buffer's contents, and one store through it leaves exactly the stored payload.
-/
import Idealize.ShloMosaic.Lib.Pipeline.FrameBody
import Idealize.ShloMosaic.Lib.Pipeline.Value

namespace Idealize.ShloMosaic.View

variable {Val : EltTy → Type} {S : Shape} {e : EltTy}

/-- The two-axis offset vector `![0, 0]` is the zero function. -/
theorem zero_offsets2 : (![0, 0] : Fin 2 → Nat) = fun _ => 0 := by
  funext a; fin_cases a <;> rfl

/-- A load through the whole-shape rectangle at zero offsets reads the contents. -/
theorem readAt_unit_zero {sig : RefSig} {κ : Kind} {sp : Space} (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [readAt_eq_ld, ld_unit_zero h]

/-- One store through the whole-shape rectangle at zero offsets leaves its payload, whatever was there. -/
theorem read_writes_unit_zero [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) :
    v.read Val (v.writes Val f [(⟨Rect.unit off S.size inb, w⟩ : Piece Val S e)]) = w := by
  subst h
  rw [read_writes_eq_canon _ _ _ (fun y => ⟨_, List.mem_singleton_self _, by
    show y ∈ (Rect.whole S).set; rw [Rect.set_whole]; exact Finset.mem_univ y⟩), canon_unit_zero rfl]

end Idealize.ShloMosaic.View
-- ==== Proof.BitsBody.lean ====
/-
  The frame of `Kernel` with what its buffers hold named, point by point.

  The grid has eight points (row blocks of the adjacency matrix; the contraction axis has one block). At the first point
  the body stores the support matrix `x · W` (the whole feature array times the weights) into its scratch buffer, and at
  every point it stores, into the output block, the product of the point's 512 rows of the adjacency matrix with the
  scratch buffer. So: the scratch buffer holds `x · W` from the first point on (before it, anything: the body's first
  load of it, made only to be overwritten, reads whatever is there), and the output block after point `t` is
  `adj[512 t .. 512 t + 511, :] · (x · W)`. Both are stated here through the body's own payload terms, for any float
  instance; what they are as sums is read off them elsewhere.
-/
import proofs.«154850_g67791763800670_cont_sun_m_1117_15_alg».proof.Proof.Gen.Kernel.Frame
import proofs.«154850_g67791763800670_cont_sun_m_1117_15_alg».proof.Proof.Gen.Kernel.Skeleton
import proofs.«154850_g67791763800670_cont_sun_m_1117_15_alg».proof.Proof.LibCover
import proofs.«154850_g67791763800670_cont_sun_m_1117_15_alg».proof.Proof.LibWhole
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branches and offsets over the grid -/

/-- The support matrix is computed at the first grid point only (row block 0). -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The contraction axis has one block: every point assigns the output block, -/
theorem assign_all : ∀ t : Fin cfg0.N, k0_cond2 (grid0.coords t) = 1#1 :=
  (by decide +kernel : ∀ t : Fin grid0.N, k0_cond2 (grid0.coords t) = 1#1)
/-- and none adds to it. -/
theorem accum_none : ∀ t : Fin cfg0.N, ¬ k0_cond3 (grid0.coords t) = 1#1 :=
  (by decide +kernel : ∀ t : Fin grid0.N, ¬ k0_cond3 (grid0.coords t) = 1#1)
/-- The scratch buffer is stored and loaded whole: the row offset `4096 · k` is zero at the one contraction block. -/
theorem store_off_zero : ∀ t : Fin cfg0.N, k0_off1 (grid0.coords t) = fun _ => 0 :=
  (by decide +kernel : ∀ t : Fin grid0.N, k0_off1 (grid0.coords t) = fun _ => 0)
theorem load_off_zero : ∀ t : Fin cfg0.N, k0_off2 (grid0.coords t) = fun _ => 0 :=
  (by decide +kernel : ∀ t : Fin grid0.N, k0_off2 (grid0.coords t) = fun _ => 0)

/-- No window is idle at any point (the output block is stored at every point). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The body on any whole staging memrefs -/

set_option maxHeartbeats 1000000 in
/-- At the FIRST point: from the three input blocks `a` (adjacency rows), `x` (features), `w` (weights), the output
    buffer and the scratch buffer at anything, the body ends with the scratch buffer at `x · w` (`k0_pay1 x w`) and the
    output buffer at `a · (x · w)` (`k0_pay2 a (k0_pay1 x w)`): its load of the scratch after the store reads the stored
    product, both through the whole buffer. -/
theorem runFirst (c : Dev nD) (i : grid0.Coords) (arg2 : Memref sig .tc .vmem S512x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc0 : k0_cond1 i = 1#1) (hc1 : k0_cond2 i = 1#1) (hc2 : ¬ k0_cond3 i = 1#1) (hz1 : k0_off1 i = fun _ => 0) (hz2 : k0_off2 i = fun _ => 0)
    (a : Vec F S512x4096 .f32) (x : Vec F S4096x256 .f32) (w : Vec F S256x256 .f32) :
      ∀ (E : Set ℕ) (K : PUnit → sProp 𝕄),
        iprop(owns (c : Thread nD τ) arg2 fullShare a ∗ owns (c : Thread nD τ) arg3 fullShare x ∗ owns (c : Thread nD τ) arg4 fullShare w ∗ (∃ d, owns (c : Thread nD τ) arg5 fullShare d) ∗ (∃ d, owns (c : Thread nD τ) arg6 fullShare d)
            ∗ (iprop(owns (c : Thread nD τ) arg2 fullShare a ∗ owns (c : Thread nD τ) arg3 fullShare x ∗ owns (c : Thread nD τ) arg4 fullShare w ∗ owns (c : Thread nD τ) arg5 fullShare (k0_pay2 a (k0_pay1 x w)) ∗ owns (c : Thread nD τ) arg6 fullShare (k0_pay1 x w)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_run_names
      rw [View.read_writes_unit_zero arg5.view _ View.zero_offsets2, View.readAt_unit_zero arg2.view _ View.zero_offsets2, harg2.read_unread,
        View.readCov_cons_whole_ld arg6.view hz1, View.ld_unit_zero hz2,
        View.readAt_unit_zero arg3.view _ View.zero_offsets2, harg3.read_unread,
        View.readAt_unit_zero arg4.view _ View.zero_offsets2, harg4.read_unread]
    iexists _; isplitr; swap; · iexact HS0
    ipureintro
    sl_unfold_run_names
    rw [View.read_writes_unit_zero arg6.view _ hz1,
      View.readAt_unit_zero arg3.view _ View.zero_offsets2, harg3.read_unread,
      View.readAt_unit_zero arg4.view _ View.zero_offsets2, harg4.read_unread]

set_option maxHeartbeats 1000000 in
/-- At a LATER point: the scratch buffer holds `s` and keeps it; the output buffer ends at `a · s` (`k0_pay2 a s`). -/
theorem runLater (c : Dev nD) (i : grid0.Coords) (arg2 : Memref sig .tc .vmem S512x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc0 : ¬ k0_cond1 i = 1#1) (hc1 : k0_cond2 i = 1#1) (hc2 : ¬ k0_cond3 i = 1#1) (hz2 : k0_off2 i = fun _ => 0)
    (a : Vec F S512x4096 .f32) (x : Vec F S4096x256 .f32) (w : Vec F S256x256 .f32) (s : Vec F S4096x256 .f32) :
      ∀ (E : Set ℕ) (K : PUnit → sProp 𝕄),
        iprop(owns (c : Thread nD τ) arg2 fullShare a ∗ owns (c : Thread nD τ) arg3 fullShare x ∗ owns (c : Thread nD τ) arg4 fullShare w ∗ (∃ d, owns (c : Thread nD τ) arg5 fullShare d) ∗ owns (c : Thread nD τ) arg6 fullShare s
            ∗ (iprop(owns (c : Thread nD τ) arg2 fullShare a ∗ owns (c : Thread nD τ) arg3 fullShare x ∗ owns (c : Thread nD τ) arg4 fullShare w ∗ owns (c : Thread nD τ) arg5 fullShare (k0_pay2 a s) ∗ owns (c : Thread nD τ) arg6 fullShare s) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_run_names
      rw [View.read_writes_unit_zero arg5.view _ View.zero_offsets2, View.readAt_unit_zero arg2.view _ View.zero_offsets2, harg2.read_unread,
        View.readAt_unit_zero arg6.view _ hz2, harg6.read_unread]
    iexists _; isplitr; · ipureintro; exact harg6.read_unread _
    iexact HS0

/-! ## The proof data -/

variable (m : (ℓ : Loc nD τ sig) → Buf (Elt F) ℓ) (ρ : Dev nD → PrngReg)

/-- Each window's current staging memref at point `t`, as the pipeline passes it to the body. -/
abbrev stgAdj (t : Fin cfg0.N) : Memref sig .tc .vmem S512x4096 .f32 := win0_0.stage (cfg0.slots t 0)
abbrev stgX (t : Fin cfg0.N) : Memref sig .tc .vmem S4096x256 .f32 := win0_1.stage (cfg0.slots t 1)
abbrev stgW (t : Fin cfg0.N) : Memref sig .tc .vmem S256x256 .f32 := win0_2.stage (cfg0.slots t 2)
abbrev stgOut (t : Fin cfg0.N) : Memref sig .tc .vmem S512x256 .f32 := win0_3.stage (cfg0.slots t 3)
/-- The scratch operand: a whole scoped buffer of the kernel's own. -/
abbrev scratch : Memref sig .tc .vmem S4096x256 .f32 := Memref.whole cc0_scratch0

/-- The class invariant with the scratch buffer as a memref owned at some contents, and the generator register. -/
theorem classInv_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The support matrix `x · W`: the body's first payload of the feature block and the weight block of the first point
    (each the whole array: the windows' one block). -/
def support (c : Dev nD) : Vec F S4096x256 .f32 := k0_pay1 (iblk m c 1 t0_0) (iblk m c 2 t0_0)

/-- The region invariant before point `t`: before the first point the class's (the scratch at anything); from then on
    the scratch at the support matrix; the generator register at some state. -/
def inv (c : Dev nD) (t : Fin (cfg0.N + 1)) : sProp 𝕄 :=
  if t.val = 0 then Pipeline.ΦA spec0 c
  else iprop(iprop(owns (c : Thread nD τ) scratch fullShare (support m c)) ∗ (∃ r, prngReg c r))

/-- The proof data on core `c`: the arrays as the region finds them; after the body at point `t` each input's buffer at
    its block and the output's at the product of the point's adjacency rows with the support matrix; the invariant
    `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (support m c)
  Φ t := inv m c t
  q _ := fullShare
  owed _ := 0

theorem A_eq (c : Dev nD) (w : Fin cfg0.W) : (dats m 0 c).A w = V m c (Pipeline.arrRef spec0 w) := by
  dsimp only [dats]

theorem afterAdj (c : Dev nD) (t : Fin cfg0.N) : (dats m 0 c).after 0 t = iblk m c 0 t := by dsimp only [dats]
theorem afterX (c : Dev nD) (t : Fin cfg0.N) : (dats m 0 c).after 1 t = iblk m c 1 t := by dsimp only [dats]
theorem afterW (c : Dev nD) (t : Fin cfg0.N) : (dats m 0 c).after 2 t = iblk m c 2 t := by dsimp only [dats]
theorem afterOut (c : Dev nD) (t : Fin cfg0.N) : (dats m 0 c).after 3 t = k0_pay2 (iblk m c 0 t) (support m c) := by dsimp only [dats]

/-- Each input's current staging buffer holds its block at every point, fetched there or not. -/
theorem beforeAdj (c : Dev nD) (t : Fin cfg0.N) (d) : (dats m 0 c).before 0 t d = iblk m c 0 t :=
  before0_0_of m (dats m 0 c) (A_eq m c 0) (afterAdj m c) t d
theorem beforeX (c : Dev nD) (t : Fin cfg0.N) (d) : (dats m 0 c).before 1 t d = iblk m c 1 t :=
  before0_1_of m (dats m 0 c) (A_eq m c 1) (afterX m c) t d
theorem beforeW (c : Dev nD) (t : Fin cfg0.N) (d) : (dats m 0 c).before 2 t d = iblk m c 2 t :=
  before0_2_of m (dats m 0 c) (A_eq m c 2) (afterW m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stgAdj t) fullShare ((dats m 0 c).before 0 t d))
    ∗ (∃ d, owns (c : Thread nD τ) (stgX t) fullShare ((dats m 0 c).before 1 t d))
    ∗ (∃ d, owns (c : Thread nD τ) (stgW t) fullShare ((dats m 0 c).before 2 t d))
    ∗ (∃ d, owns (c : Thread nD τ) (stgOut t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; at the first point the scratch comes at anything and
    goes back at the support matrix, at a later point it comes and goes at the support matrix; the output's buffer,
    whatever it held, goes back at the point's product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeAdj, beforeX, beforeW]
  rw [show (dats m 0 c).owesAt () t.succ = (dats m 0 c).owesAt () t.castSucc from rfl]
  rw [show (dats m 0 c).leavesExact 0 t = owns (c : Thread nD τ) (stgAdj t) fullShare ((dats m 0 c).after 0 t) from by
    unfold Dat.leavesExact; rw [live0 t], afterAdj]
  rw [show (dats m 0 c).leavesExact 1 t = owns (c : Thread nD τ) (stgX t) fullShare ((dats m 0 c).after 1 t) from by
    unfold Dat.leavesExact; rw [live1 t], afterX]
  rw [show (dats m 0 c).leavesExact 2 t = owns (c : Thread nD τ) (stgW t) fullShare ((dats m 0 c).after 2 t) from by
    unfold Dat.leavesExact; rw [live2 t], afterW]
  rw [show (dats m 0 c).leavesExact 3 t = owns (c : Thread nD τ) (stgOut t) fullShare ((dats m 0 c).after 3 t) from by
    unfold Dat.leavesExact; rw [live3 t], afterOut]
  rw [show (dats m 0 c).Φ t.succ = inv m c t.succ from rfl, show (dats m 0 c).Φ t.castSucc = inv m c t.castSucc from rfl]
  unfold inv
  rw [if_neg (show ¬ t.succ.val = 0 from Nat.succ_ne_zero _)]
  by_cases h0 : t.val = 0
  · rw [if_pos (show t.castSucc.val = 0 from h0), classInv_eq]
    have hs : support m c = k0_pay1 (iblk m c 1 t) (iblk m c 2 t) := by
      rw [show t = t0_0 from Fin.ext h0]; rfl
    rw [hs]
    iintro ⟨⟨HS, Hg⟩, Ho, ⟨%d0, H0⟩, ⟨%d1, H1⟩, ⟨%d2, H2⟩, ⟨%d3, H3⟩⟩
    iapply ((runFirst c (grid0.coords t) _ _ _ _ _ _ _ _ _ _ ((first_iff t).mpr h0) (assign_all t) (accum_none t) (store_off_zero t) (load_off_zero t) (iblk m c 0 t) (iblk m c 1 t) (iblk m c 2 t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · rw [if_neg (show ¬ t.castSucc.val = 0 from h0)]
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun h => h0 ((first_iff t).mp h)) (assign_all t) (accum_none t) (load_off_zero t) (iblk m c 0 t) (iblk m c 1 t) (iblk m c 2 t) (support m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 from rfl]; unfold inv
  rw [if_pos (show (0 : Fin (cfg0.N + 1)).val = 0 from rfl)]

/-- After the last point the invariant gives the class's back: what the scratch holds is forgotten. -/
theorem inv_out (c : Dev nD) : (dats m 0 c).Φ (Fin.last cfg0.N) ⊢ Pipeline.ΦA spec0 c := by
  rw [show (dats m 0 c).Φ (Fin.last cfg0.N) = inv m c (Fin.last cfg0.N) from rfl]; unfold inv
  rw [if_neg (show ¬ (Fin.last cfg0.N).val = 0 from by rw [Fin.val_last]; have : cfg0.N = 8 := N_0; omega), classInv_eq]
  iintro ⟨HS, Hg⟩
  isplitl [HS]
  · iexists _; iexact HS
  iexact Hg

/-! ## The run and the frame -/

set_option backward.isDefEq.respectTransparency.types false in
/-- From any memory with zero counters every weakly fair execution of @main terminates, every array of the pipeline
    ending at what the library computes from the proof data (the output array: its blocks overwritten, point by
    point, by the products above) and every other unscoped buffer unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame claim at any float instance: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealBody.lean ====
/-
  The frame of `KernelIdeal` with what its buffers hold named, point by point.

  The grid has eight points (row blocks of the adjacency matrix; the contraction axis has one block). At the first point
  the body stores the support matrix `x · W` (the whole feature array times the weights) into its scratch buffer, and at
  every point it stores, into the output block, the product of the point's 512 rows of the adjacency matrix with the
  scratch buffer. So: the scratch buffer holds `x · W` from the first point on (before it, anything: the body's first
  load of it, made only to be overwritten, reads whatever is there), and the output block after point `t` is
  `adj[512 t .. 512 t + 511, :] · (x · W)`. Both are stated here through the body's own payload terms, for any float
  instance; what they are as sums is read off them elsewhere.
-/
import proofs.«154850_g67791763800670_cont_sun_m_1117_15_alg».proof.Proof.Gen.KernelIdeal.Frame
import proofs.«154850_g67791763800670_cont_sun_m_1117_15_alg».proof.Proof.Gen.KernelIdeal.Skeleton
import proofs.«154850_g67791763800670_cont_sun_m_1117_15_alg».proof.Proof.LibCover
import proofs.«154850_g67791763800670_cont_sun_m_1117_15_alg».proof.Proof.LibWhole
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branches and offsets over the grid -/

/-- The support matrix is computed at the first grid point only (row block 0). -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The contraction axis has one block: every point assigns the output block, -/
theorem assign_all : ∀ t : Fin cfg0.N, k0_cond2 (grid0.coords t) = 1#1 :=
  (by decide +kernel : ∀ t : Fin grid0.N, k0_cond2 (grid0.coords t) = 1#1)
/-- and none adds to it. -/
theorem accum_none : ∀ t : Fin cfg0.N, ¬ k0_cond3 (grid0.coords t) = 1#1 :=
  (by decide +kernel : ∀ t : Fin grid0.N, ¬ k0_cond3 (grid0.coords t) = 1#1)
/-- The scratch buffer is stored and loaded whole: the row offset `4096 · k` is zero at the one contraction block. -/
theorem store_off_zero : ∀ t : Fin cfg0.N, k0_off1 (grid0.coords t) = fun _ => 0 :=
  (by decide +kernel : ∀ t : Fin grid0.N, k0_off1 (grid0.coords t) = fun _ => 0)
theorem load_off_zero : ∀ t : Fin cfg0.N, k0_off2 (grid0.coords t) = fun _ => 0 :=
  (by decide +kernel : ∀ t : Fin grid0.N, k0_off2 (grid0.coords t) = fun _ => 0)

/-- No window is idle at any point (the output block is stored at every point). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The body on any whole staging memrefs -/

set_option maxHeartbeats 1000000 in
/-- At the FIRST point: from the three input blocks `a` (adjacency rows), `x` (features), `w` (weights), the output
    buffer and the scratch buffer at anything, the body ends with the scratch buffer at `x · w` (`k0_pay1 x w`) and the
    output buffer at `a · (x · w)` (`k0_pay2 a (k0_pay1 x w)`): its load of the scratch after the store reads the stored
    product, both through the whole buffer. -/
theorem runFirst (c : Dev nD) (i : grid0.Coords) (arg2 : Memref sig .tc .vmem S512x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc0 : k0_cond1 i = 1#1) (hc1 : k0_cond2 i = 1#1) (hc2 : ¬ k0_cond3 i = 1#1) (hz1 : k0_off1 i = fun _ => 0) (hz2 : k0_off2 i = fun _ => 0)
    (a : Vec F S512x4096 .f32) (x : Vec F S4096x256 .f32) (w : Vec F S256x256 .f32) :
      ∀ (E : Set ℕ) (K : PUnit → sProp 𝕄),
        iprop(owns (c : Thread nD τ) arg2 fullShare a ∗ owns (c : Thread nD τ) arg3 fullShare x ∗ owns (c : Thread nD τ) arg4 fullShare w ∗ (∃ d, owns (c : Thread nD τ) arg5 fullShare d) ∗ (∃ d, owns (c : Thread nD τ) arg6 fullShare d)
            ∗ (iprop(owns (c : Thread nD τ) arg2 fullShare a ∗ owns (c : Thread nD τ) arg3 fullShare x ∗ owns (c : Thread nD τ) arg4 fullShare w ∗ owns (c : Thread nD τ) arg5 fullShare (k0_pay2 a (k0_pay1 x w)) ∗ owns (c : Thread nD τ) arg6 fullShare (k0_pay1 x w)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_run_names
      rw [View.read_writes_unit_zero arg5.view _ View.zero_offsets2, View.readAt_unit_zero arg2.view _ View.zero_offsets2, harg2.read_unread,
        View.readCov_cons_whole_ld arg6.view hz1, View.ld_unit_zero hz2,
        View.readAt_unit_zero arg3.view _ View.zero_offsets2, harg3.read_unread,
        View.readAt_unit_zero arg4.view _ View.zero_offsets2, harg4.read_unread]
    iexists _; isplitr; swap; · iexact HS0
    ipureintro
    sl_unfold_run_names
    rw [View.read_writes_unit_zero arg6.view _ hz1,
      View.readAt_unit_zero arg3.view _ View.zero_offsets2, harg3.read_unread,
      View.readAt_unit_zero arg4.view _ View.zero_offsets2, harg4.read_unread]

set_option maxHeartbeats 1000000 in
/-- At a LATER point: the scratch buffer holds `s` and keeps it; the output buffer ends at `a · s` (`k0_pay2 a s`). -/
theorem runLater (c : Dev nD) (i : grid0.Coords) (arg2 : Memref sig .tc .vmem S512x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc0 : ¬ k0_cond1 i = 1#1) (hc1 : k0_cond2 i = 1#1) (hc2 : ¬ k0_cond3 i = 1#1) (hz2 : k0_off2 i = fun _ => 0)
    (a : Vec F S512x4096 .f32) (x : Vec F S4096x256 .f32) (w : Vec F S256x256 .f32) (s : Vec F S4096x256 .f32) :
      ∀ (E : Set ℕ) (K : PUnit → sProp 𝕄),
        iprop(owns (c : Thread nD τ) arg2 fullShare a ∗ owns (c : Thread nD τ) arg3 fullShare x ∗ owns (c : Thread nD τ) arg4 fullShare w ∗ (∃ d, owns (c : Thread nD τ) arg5 fullShare d) ∗ owns (c : Thread nD τ) arg6 fullShare s
            ∗ (iprop(owns (c : Thread nD τ) arg2 fullShare a ∗ owns (c : Thread nD τ) arg3 fullShare x ∗ owns (c : Thread nD τ) arg4 fullShare w ∗ owns (c : Thread nD τ) arg5 fullShare (k0_pay2 a s) ∗ owns (c : Thread nD τ) arg6 fullShare s) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_run_names
      rw [View.read_writes_unit_zero arg5.view _ View.zero_offsets2, View.readAt_unit_zero arg2.view _ View.zero_offsets2, harg2.read_unread,
        View.readAt_unit_zero arg6.view _ hz2, harg6.read_unread]
    iexists _; isplitr; · ipureintro; exact harg6.read_unread _
    iexact HS0

/-! ## The proof data -/

variable (m : (ℓ : Loc nD τ sig) → Buf (Elt F) ℓ) (ρ : Dev nD → PrngReg)

/-- Each window's current staging memref at point `t`, as the pipeline passes it to the body. -/
abbrev stgAdj (t : Fin cfg0.N) : Memref sig .tc .vmem S512x4096 .f32 := win0_0.stage (cfg0.slots t 0)
abbrev stgX (t : Fin cfg0.N) : Memref sig .tc .vmem S4096x256 .f32 := win0_1.stage (cfg0.slots t 1)
abbrev stgW (t : Fin cfg0.N) : Memref sig .tc .vmem S256x256 .f32 := win0_2.stage (cfg0.slots t 2)
abbrev stgOut (t : Fin cfg0.N) : Memref sig .tc .vmem S512x256 .f32 := win0_3.stage (cfg0.slots t 3)
/-- The scratch operand: a whole scoped buffer of the kernel's own. -/
abbrev scratch : Memref sig .tc .vmem S4096x256 .f32 := Memref.whole cc0_scratch0

/-- The class invariant with the scratch buffer as a memref owned at some contents, and the generator register. -/
theorem classInv_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The support matrix `x · W`: the body's first payload of the feature block and the weight block of the first point
    (each the whole array: the windows' one block). -/
def support (c : Dev nD) : Vec F S4096x256 .f32 := k0_pay1 (iblk m c 1 t0_0) (iblk m c 2 t0_0)

/-- The region invariant before point `t`: before the first point the class's (the scratch at anything); from then on
    the scratch at the support matrix; the generator register at some state. -/
def inv (c : Dev nD) (t : Fin (cfg0.N + 1)) : sProp 𝕄 :=
  if t.val = 0 then Pipeline.ΦA spec0 c
  else iprop(iprop(owns (c : Thread nD τ) scratch fullShare (support m c)) ∗ (∃ r, prngReg c r))

/-- The proof data on core `c`: the arrays as the region finds them; after the body at point `t` each input's buffer at
    its block and the output's at the product of the point's adjacency rows with the support matrix; the invariant
    `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (support m c)
  Φ t := inv m c t
  q _ := fullShare
  owed _ := 0

theorem A_eq (c : Dev nD) (w : Fin cfg0.W) : (dats m 0 c).A w = V m c (Pipeline.arrRef spec0 w) := by
  dsimp only [dats]

theorem afterAdj (c : Dev nD) (t : Fin cfg0.N) : (dats m 0 c).after 0 t = iblk m c 0 t := by dsimp only [dats]
theorem afterX (c : Dev nD) (t : Fin cfg0.N) : (dats m 0 c).after 1 t = iblk m c 1 t := by dsimp only [dats]
theorem afterW (c : Dev nD) (t : Fin cfg0.N) : (dats m 0 c).after 2 t = iblk m c 2 t := by dsimp only [dats]
theorem afterOut (c : Dev nD) (t : Fin cfg0.N) : (dats m 0 c).after 3 t = k0_pay2 (iblk m c 0 t) (support m c) := by dsimp only [dats]

/-- Each input's current staging buffer holds its block at every point, fetched there or not. -/
theorem beforeAdj (c : Dev nD) (t : Fin cfg0.N) (d) : (dats m 0 c).before 0 t d = iblk m c 0 t :=
  before0_0_of m (dats m 0 c) (A_eq m c 0) (afterAdj m c) t d
theorem beforeX (c : Dev nD) (t : Fin cfg0.N) (d) : (dats m 0 c).before 1 t d = iblk m c 1 t :=
  before0_1_of m (dats m 0 c) (A_eq m c 1) (afterX m c) t d
theorem beforeW (c : Dev nD) (t : Fin cfg0.N) (d) : (dats m 0 c).before 2 t d = iblk m c 2 t :=
  before0_2_of m (dats m 0 c) (A_eq m c 2) (afterW m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stgAdj t) fullShare ((dats m 0 c).before 0 t d))
    ∗ (∃ d, owns (c : Thread nD τ) (stgX t) fullShare ((dats m 0 c).before 1 t d))
    ∗ (∃ d, owns (c : Thread nD τ) (stgW t) fullShare ((dats m 0 c).before 2 t d))
    ∗ (∃ d, owns (c : Thread nD τ) (stgOut t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; at the first point the scratch comes at anything and
    goes back at the support matrix, at a later point it comes and goes at the support matrix; the output's buffer,
    whatever it held, goes back at the point's product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeAdj, beforeX, beforeW]
  rw [show (dats m 0 c).owesAt () t.succ = (dats m 0 c).owesAt () t.castSucc from rfl]
  rw [show (dats m 0 c).leavesExact 0 t = owns (c : Thread nD τ) (stgAdj t) fullShare ((dats m 0 c).after 0 t) from by
    unfold Dat.leavesExact; rw [live0 t], afterAdj]
  rw [show (dats m 0 c).leavesExact 1 t = owns (c : Thread nD τ) (stgX t) fullShare ((dats m 0 c).after 1 t) from by
    unfold Dat.leavesExact; rw [live1 t], afterX]
  rw [show (dats m 0 c).leavesExact 2 t = owns (c : Thread nD τ) (stgW t) fullShare ((dats m 0 c).after 2 t) from by
    unfold Dat.leavesExact; rw [live2 t], afterW]
  rw [show (dats m 0 c).leavesExact 3 t = owns (c : Thread nD τ) (stgOut t) fullShare ((dats m 0 c).after 3 t) from by
    unfold Dat.leavesExact; rw [live3 t], afterOut]
  rw [show (dats m 0 c).Φ t.succ = inv m c t.succ from rfl, show (dats m 0 c).Φ t.castSucc = inv m c t.castSucc from rfl]
  unfold inv
  rw [if_neg (show ¬ t.succ.val = 0 from Nat.succ_ne_zero _)]
  by_cases h0 : t.val = 0
  · rw [if_pos (show t.castSucc.val = 0 from h0), classInv_eq]
    have hs : support m c = k0_pay1 (iblk m c 1 t) (iblk m c 2 t) := by
      rw [show t = t0_0 from Fin.ext h0]; rfl
    rw [hs]
    iintro ⟨⟨HS, Hg⟩, Ho, ⟨%d0, H0⟩, ⟨%d1, H1⟩, ⟨%d2, H2⟩, ⟨%d3, H3⟩⟩
    iapply ((runFirst c (grid0.coords t) _ _ _ _ _ _ _ _ _ _ ((first_iff t).mpr h0) (assign_all t) (accum_none t) (store_off_zero t) (load_off_zero t) (iblk m c 0 t) (iblk m c 1 t) (iblk m c 2 t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · rw [if_neg (show ¬ t.castSucc.val = 0 from h0)]
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun h => h0 ((first_iff t).mp h)) (assign_all t) (accum_none t) (load_off_zero t) (iblk m c 0 t) (iblk m c 1 t) (iblk m c 2 t) (support m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 from rfl]; unfold inv
  rw [if_pos (show (0 : Fin (cfg0.N + 1)).val = 0 from rfl)]

/-- After the last point the invariant gives the class's back: what the scratch holds is forgotten. -/
theorem inv_out (c : Dev nD) : (dats m 0 c).Φ (Fin.last cfg0.N) ⊢ Pipeline.ΦA spec0 c := by
  rw [show (dats m 0 c).Φ (Fin.last cfg0.N) = inv m c (Fin.last cfg0.N) from rfl]; unfold inv
  rw [if_neg (show ¬ (Fin.last cfg0.N).val = 0 from by rw [Fin.val_last]; have : cfg0.N = 8 := N_0; omega), classInv_eq]
  iintro ⟨HS, Hg⟩
  isplitl [HS]
  · iexists _; iexact HS
  iexact Hg

/-! ## The run and the frame -/

set_option backward.isDefEq.respectTransparency.types false in
/-- From any memory with zero counters every weakly fair execution of @main terminates, every array of the pipeline
    ending at what the library computes from the proof data (the output array: its blocks overwritten, point by
    point, by the products above) and every other unscoped buffer unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame claim at any float instance: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Spec.lean ====
/-
  The graph-convolution layer as ONE function of its three argument arrays, at the ideal values (extended reals):
  for features `x : [4096, 256]`, a dense adjacency `adj : [4096, 4096]` and weights `w : [256, 256]`,

      support(k, q) = Σ_j x(k, j) · w(j, q)           (the support matrix  x · w)
      layer(p, q)   = Σ_k adj(p, k) · support(k, q)    (the layer           adj · (x · w))

  Both programs compute exactly these two nested sums, in this association — the kernel one block of 512 rows of `adj`
  at a time against the support matrix it keeps, the reference as two whole products — so no algebraic law beyond the
  reading of a matrix product as a sum is needed, and nothing is asked of the inputs.
-/
import Idealize.ShloMosaic.Lib.ValueIdx
import Idealize.ShloMosaic.PureOps.Ideal.Laws
import proofs.«154850_g67791763800670_cont_sun_m_1117_15_alg».proof.Proof.LibPlain

noncomputable section

namespace Cert.GraphLayer

open Idealize.ShloMosaic Idealize.ShloMosaic.ValueIdx

abbrev Feat : Shape := ⟨2, ![4096, 256]⟩
abbrev Adj : Shape := ⟨2, ![4096, 4096]⟩
abbrev Wt : Shape := ⟨2, ![256, 256]⟩
abbrev Rows : Shape := ⟨2, ![512, 4096]⟩
abbrev OutRows : Shape := ⟨2, ![512, 256]⟩

/-- The support matrix `x · w`, entry by entry. -/
def support (x : Feat.Idx → EReal) (w : Wt.Idx → EReal) : Feat.Idx → EReal :=
  fun i => ∑ j : Fin 256, x (ix2 (i 0) j) * w (ix2 j (i 1))

/-- The layer `adj · (x · w)`, entry by entry. -/
def layer (x : Feat.Idx → EReal) (adj : Adj.Idx → EReal) (w : Wt.Idx → EReal) : Feat.Idx → EReal :=
  fun i => ∑ k : Fin 4096, adj (ix2 (i 0) k) * support x w (ix2 k (i 1))

theorem support_apply (x : Feat.Idx → EReal) (w : Wt.Idx → EReal) (k : Fin 4096) (q : Fin 256) :
    support x w (ix2 k q) = ∑ j : Fin 256, x (ix2 k j) * w (ix2 j q) := rfl

theorem layer_apply (x : Feat.Idx → EReal) (adj : Adj.Idx → EReal) (w : Wt.Idx → EReal) (p : Fin 4096) (q : Fin 256) :
    layer x adj w (ix2 p q) = ∑ k : Fin 4096, adj (ix2 p k) * support x w (ix2 k q) := rfl

/-- The matrix unit's product of the features with the weights, into a zero accumulator, is the support matrix. -/
theorem matmul_support (x : FVec Ideal Feat .f32) (w : FVec Ideal Wt .f32) :
    FloatOps.matmul (DotDims.plain 4096 256 256) none x w (constant Feat .f32 0x00000000#32) = support x w := by
  funext i
  obtain ⟨p, q, rfl⟩ : ∃ (p : Fin 4096) (q : Fin 256), i = ix2 p q := ⟨i 0, i 1, eq_ix2 i⟩
  exact Ideal.matmul_plain_zero_apply none x w p q

/-- So is the host's product of the same two arrays. -/
theorem dot_support (sched : HostSchedule) (x : FVec Ideal Feat .f32) (w : FVec Ideal Wt .f32) :
    FloatOps.dotGeneral (DotDims.plain 4096 256 256) none sched x w = support x w := by
  funext i
  obtain ⟨p, q, rfl⟩ : ∃ (p : Fin 4096) (q : Fin 256), i = ix2 p q := ⟨i 0, i 1, eq_ix2 i⟩
  exact Ideal.dotGeneral_plain_apply none sched x w p q

/-- The matrix unit's product of 512 rows `a` of the adjacency with a matrix `s`, into a zero accumulator, at (p, q). -/
theorem matmul_rows_apply (a : FVec Ideal Rows .f32) (s : FVec Ideal Feat .f32) (p : Fin 512) (q : Fin 256) :
    FloatOps.matmul (DotDims.plain 512 4096 256) none a s (constant OutRows .f32 0x00000000#32) (ix2 p q)
      = ∑ k : Fin 4096, a (ix2 p k) * s (ix2 k q) :=
  Ideal.matmul_plain_zero_apply none a s p q

/-- The host's product of the adjacency with the host's support matrix is the layer. -/
theorem dot_layer (sched sched' : HostSchedule) (x : FVec Ideal Feat .f32) (adj : FVec Ideal Adj .f32) (w : FVec Ideal Wt .f32) :
    FloatOps.dotGeneral (DotDims.plain 4096 4096 256) none sched adj (FloatOps.dotGeneral (DotDims.plain 4096 256 256) none sched' x w)
      = layer x adj w := by
  rw [dot_support]
  funext i
  obtain ⟨p, q, rfl⟩ : ∃ (p : Fin 4096) (q : Fin 256), i = ix2 p q := ⟨i 0, i 1, eq_ix2 i⟩
  exact Ideal.dotGeneral_plain_apply none sched adj (support x w) p q

end Cert.GraphLayer

end
-- ==== Proof.IdealValue.lean ====
/-
  What the kernel's output array holds after the run, at the ideal values: the layer `adj · (x · w)` of the three
  argument arrays.

  The scratch buffer's support matrix is the product of the whole feature array with the whole weight array (their
  windows have one block each). The output block of point `t` is the product of rows `512 t … 512 t + 511` of the
  adjacency with the support matrix, which is rows `512 t … 512 t + 511` of the layer; the eight blocks tile the output
  array, so the array ends as the layer.
-/
import proofs.«154850_g67791763800670_cont_sun_m_1117_15_alg».proof.Proof.IdealBody
import proofs.«154850_g67791763800670_cont_sun_m_1117_15_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Body Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ) (ρ : Dev nD → PrngReg)

/-! ## The body's two payloads as sums -/

/-- The printed records of the body's two products are the plain `[M,K] × [K,N]` ones. -/
theorem dims_support : dot_S4096x256_S256x256_S4096x256_1_0_0_1_n_n = DotDims.plain 4096 256 256 := rfl
theorem dims_rows : dot_S512x4096_S4096x256_S512x256_1_0_0_1_n_n = DotDims.plain 512 4096 256 := rfl

/-- The first payload (stored into the scratch buffer) is the support matrix of the two loaded blocks. -/
theorem pay1_eq (x : Vec Ideal S4096x256 .f32) (w : Vec Ideal S256x256 .f32) :
    k0_pay1 (F := Ideal) x w = support x w := by
  unfold k0_pay1
  dsimp only
  rw [shapeCast_self, dims_support]
  exact matmul_support x w

/-- The second payload (stored into the output block) at (p, q): the row `p` of the loaded adjacency rows against
    column `q` of the loaded scratch contents. -/
theorem pay2_apply (a : Vec Ideal S512x4096 .f32) (s : Vec Ideal S4096x256 .f32) (p : Fin 512) (q : Fin 256) :
    k0_pay2 (F := Ideal) a s (ix2 p q) = ∑ k : Fin 4096, a (ix2 p k) * s (ix2 k q) := by
  unfold k0_pay2
  rw [dims_rows]
  exact matmul_rows_apply a s p q

/-- Rows `512 r …` of the adjacency against the support matrix are rows `512 r …` of the layer: for `a` those rows
    of `adj`, the second payload at an index `y` of the block is the layer at the index `e` of the array with row
    `512 r + y₀` and column `y₁`. -/
theorem rows_eq (x : Feat.Idx → EReal) (adj : Adj.Idx → EReal) (w : Wt.Idx → EReal) (a : Vec Ideal S512x4096 .f32) (r : ℕ)
    (ha : ∀ (z : S512x4096.Idx) (z' : S4096x4096.Idx), (z' 0).val = r * 512 + (z 0).val → (z' 1).val = (z 1).val → a z = adj z')
    (y : S512x256.Idx) (e : S4096x256.Idx) (h0 : (e 0).val = r * 512 + (y 0).val) (h1 : (e 1).val = (y 1).val) :
    k0_pay2 (F := Ideal) a (support x w) y = layer x adj w e := by
  obtain ⟨p, q, rfl⟩ : ∃ (p : Fin 512) (q : Fin 256), y = ix2 p q := ⟨y 0, y 1, eq_ix2 y⟩
  obtain ⟨p', q', rfl⟩ : ∃ (p' : Fin 4096) (q' : Fin 256), e = ix2 p' q' := ⟨e 0, e 1, eq_ix2 e⟩
  obtain rfl : q' = q := Fin.ext h1
  rw [pay2_apply, layer_apply]
  exact Finset.sum_congr rfl fun k _ => by rw [ha (ix2 p k) (ix2 p' k) h0 rfl]

/-! ## The windows' blocks -/

/-- The printed index maps over the grid: the adjacency's block and the output's block are at row block `t`, column
    block 0. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

/-- At the first point the features' and the weights' blocks are block (0, 0): the whole arrays. -/
theorem idx_first : win0_1.index t0_0 (0 : Fin 2) = 0 ∧ win0_1.index t0_0 (1 : Fin 2) = 0
    ∧ win0_2.index t0_0 (0 : Fin 2) = 0 ∧ win0_2.index t0_0 (1 : Fin 2) = 0 := by decide +kernel

/-- The features' block at the first point is the feature array, -/
theorem blkX_first (c : Dev nD) : iblk m c 1 t0_0 = V m c main_arg0 := by
  obtain ⟨e0, e1, -, -⟩ := idx_first
  funext y
  show V m c main_arg0 (((cfg0.win 1).blk t0_0).view.emb y) = V m c main_arg0 y
  refine congrArg _ (funext fun a => Fin.ext ?_)
  match a with
  | ⟨0, _⟩ => show win0_1.index t0_0 (0 : Fin 2) * 4096 + 1 * (y 0).val = (y 0).val; omega
  | ⟨1, _⟩ => show win0_1.index t0_0 (1 : Fin 2) * 256 + 1 * (y 1).val = (y 1).val; omega

/-- and the weights' block the weight array. -/
theorem blkW_first (c : Dev nD) : iblk m c 2 t0_0 = V m c main_arg2 := by
  obtain ⟨-, -, e0, e1⟩ := idx_first
  funext y
  show V m c main_arg2 (((cfg0.win 2).blk t0_0).view.emb y) = V m c main_arg2 y
  refine congrArg _ (funext fun a => Fin.ext ?_)
  match a with
  | ⟨0, _⟩ => show win0_2.index t0_0 (0 : Fin 2) * 256 + 1 * (y 0).val = (y 0).val; omega
  | ⟨1, _⟩ => show win0_2.index t0_0 (1 : Fin 2) * 256 + 1 * (y 1).val = (y 1).val; omega

/-- So the scratch buffer's contents from the first point on are the support matrix of the argument arrays. -/
theorem support_eq (c : Dev nD) : Body.support m c = support (V m c main_arg0) (V m c main_arg2) := by
  unfold Body.support
  rw [pay1_eq, blkX_first, blkW_first]

/-- The adjacency's block at point `t` is rows `512 t …` of the adjacency array, all columns. -/
theorem blkAdj (c : Dev nD) (t : Fin cfg0.N) (z : S512x4096.Idx) (z' : S4096x4096.Idx)
    (h0 : (z' 0).val = t.val * 512 + (z 0).val) (h1 : (z' 1).val = (z 1).val) :
    iblk m c 0 t z = V m c main_arg1 z' := by
  obtain ⟨e0, e1, -, -⟩ := idx_facts t
  show V m c main_arg1 (((cfg0.win 0).blk t).view.emb z) = V m c main_arg1 z'
  refine congrArg _ (funext fun a => Fin.ext ?_)
  match a with
  | ⟨0, _⟩ => show win0_0.index t (0 : Fin 2) * 512 + 1 * (z 0).val = (z' 0).val; omega
  | ⟨1, _⟩ => show win0_0.index t (1 : Fin 2) * 4096 + 1 * (z 1).val = (z' 1).val; omega

/-! ## From the blocks to the array -/

/-- WHAT POINT `t` WRITES BACK is block `t` of the layer of the argument arrays. -/
theorem flushed_eq (c : Dev nD) (t : Fin cfg0.N) :
    (dats m 0 c).flushed 3 t
      = ((cfg0.win 3).blk t).view.read (Elt Ideal) (layer (V m c main_arg0) (V m c main_arg1) (V m c main_arg2)) := by
  show (cfg0.win 3).cut (grid0.coords t) ((dats m 0 c).after 3 t) = _
  rw [afterOut, support_eq]
  obtain ⟨-, -, e0, e1⟩ := idx_facts t
  funext y
  show k0_pay2 (F := Ideal) (iblk m c 0 t) (support (V m c main_arg0) (V m c main_arg2)) y
    = layer (V m c main_arg0) (V m c main_arg1) (V m c main_arg2) (((cfg0.win 3).blk t).view.emb y)
  refine rows_eq (V m c main_arg0) (V m c main_arg1) (V m c main_arg2) (iblk m c 0 t) t.val (blkAdj m c t) y _ ?_ ?_
  · show win0_3.index t (0 : Fin 2) * 512 + 1 * (y 0).val = t.val * 512 + (y 0).val; omega
  · show win0_3.index t (1 : Fin 2) * 256 + 1 * (y 1).val = (y 1).val; omega

/-- An index of the output array is in point `t`'s block iff each coordinate is in the block's range on its axis. -/
theorem mem_blk (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Every index of the output array is in the block of the point of its row's block: `row / 512`. -/
theorem cover (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 8 := N_0
  refine ⟨⟨(i 0).val / 512, by omega⟩, flush0_3 _, ?_⟩
  obtain ⟨-, -, e0, e1⟩ := idx_facts ⟨(i 0).val / 512, by omega⟩
  rw [mem_blk]
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e0]; dsimp only; omega
  | ⟨1, _⟩ =>
    show win0_3.index ⟨(i 0).val / 512, _⟩ (1 : Fin 2) * 256 ≤ (i 1).val ∧ (i 1).val < win0_3.index ⟨(i 0).val / 512, _⟩ (1 : Fin 2) * 256 + 256
    rw [e1]; omega

/-- THE OUTPUT ARRAY after the run is the layer of the argument arrays. -/
theorem final (c : Dev nD) :
    (dats m 0 c).arrAt 3 cfg0.N = layer (V m c main_arg0) (V m c main_arg1) (V m c main_arg2) :=
  (dats m 0 c).arrAt_eq_of_cover 3 _ (fun t _ => flushed_eq m c t) cover

/-! ## The run, read -/

/-- Every weakly fair execution of the kernel's @main terminates with the result array at the layer of the argument
    arrays as launched, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefSide.lean ====
/-
  The reference's result is the layer: its two host products, read at the ideal values, are the two nested sums.
-/
import proofs.«154850_g67791763800670_cont_sun_m_1117_15_alg».proof.Proof.Gen.ReferenceIdeal.Run
import proofs.«154850_g67791763800670_cont_sun_m_1117_15_alg».proof.Proof.Spec

noncomputable section

namespace Cert.ReferenceIdeal.RefValue

open Cert.ReferenceIdeal Cert.ReferenceIdeal.Gen Idealize.ShloMosaic

/-- The printed records of the two products are the plain `[M,K] × [K,N]` ones (their fields are the same lists). -/
theorem dims_support : dot_S4096x256_S256x256_S4096x256_1_0_0_1_n_n = DotDims.plain 4096 256 256 := rfl
theorem dims_layer : dot_S4096x4096_S4096x256_S4096x256_1_0_0_1_n_n = DotDims.plain 4096 4096 256 := rfl

/-- The reference's result term, as a function of the three argument arrays, is the layer. -/
theorem result_eq (x : FVec Ideal S4096x256 .f32) (adj : FVec Ideal S4096x4096 .f32) (w : FVec Ideal S256x256 .f32) :
    Host.dotGeneral (F := Ideal) dot_S4096x4096_S4096x256_S4096x256_1_0_0_1_n_n none adj (Host.dotGeneral (F := Ideal) dot_S4096x256_S256x256_S4096x256_1_0_0_1_n_n none x w)
      = Cert.GraphLayer.layer x adj w := by
  rw [dims_support, dims_layer]
  exact Cert.GraphLayer.dot_layer .single .single x adj w

end Cert.ReferenceIdeal.RefValue

end
-- ==== Proof.lean ====
/-
  The certificate of a graph-convolution layer: a Pallas kernel computing `adj · (x · w)` against the reference's two
  matrix products, for features `x : [4096, 256]`, a dense adjacency `adj : [4096, 4096]` and weights `w : [256, 256]`.

  The kernel runs over eight grid points, one per block of 512 rows of `adj`. At the first point it computes the support
  matrix `x · w` into a scratch buffer that stays resident; at every point it stores the product of the point's rows of
  `adj` with that buffer into the output block. At the ideal values a matrix product is a finite sum of products, so
  the output array ends as  layer(p, q) = Σ_k adj(p, k) · (Σ_j x(k, j) · w(j, q))  — the very sums, in the very
  association, of the reference's two host products. No law of the extended reals beyond reading the products as sums is
  used, so the precondition (finite inputs) is never opened.

  The modules: `Spec` (the two nested sums; the matrix products read as them), `BitsBody` / `IdealBody` (the kernel's
  frame at the word-level and at the ideal instance: the body's run at the first point and at a later one, the scratch
  buffer's contents carried from point to point, the launch), `IdealValue` (the output array after the run is the
  layer), `RefSide` (the reference's result is the layer).
-/
import proofs.«154850_g67791763800670_cont_sun_m_1117_15_alg».proof.Defs
import proofs.«154850_g67791763800670_cont_sun_m_1117_15_alg».proof.Proof.Gen.Kernel
import proofs.«154850_g67791763800670_cont_sun_m_1117_15_alg».proof.Proof.Gen.KernelIdeal
import proofs.«154850_g67791763800670_cont_sun_m_1117_15_alg».proof.Proof.Gen.ReferenceIdeal
import proofs.«154850_g67791763800670_cont_sun_m_1117_15_alg».proof.Proof.Gen.Pre_finite_inputs
import proofs.«154850_g67791763800670_cont_sun_m_1117_15_alg».proof.Proof.BitsBody
import proofs.«154850_g67791763800670_cont_sun_m_1117_15_alg».proof.Proof.IdealBody
import proofs.«154850_g67791763800670_cont_sun_m_1117_15_alg».proof.Proof.IdealValue
import proofs.«154850_g67791763800670_cont_sun_m_1117_15_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference is two host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- Both programs end with the layer of their (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
